-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x4096 : Shape := ⟨2, ![16, 4096]⟩
abbrev S4x1024x1024 : Shape := ⟨3, ![4, 1024, 1024]⟩
abbrev S4x1024 : Shape := ⟨2, ![4, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S16x4096x1024 .f32) (main_arg1 : IVec S16x4096 32) (main_arg2 : FVec F S4x1024x1024 .f32) (main_arg3 : FVec F S4x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S4x1024x1024 .f32 := Host.absf main_arg2
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024 .f32 := Host.absf main_arg3
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  main_v13
-- ==== Kernel.lean ====
abbrev S16x4096x1024 : Shape := ⟨3, ![16, 4096, 1024]⟩
abbrev S16x4096 : Shape := ⟨2, ![16, 4096]⟩
abbrev S4x1024x1024 : Shape := ⟨3, ![4, 1024, 1024]⟩
abbrev S4x1024 : Shape := ⟨2, ![4, 1024]⟩
abbrev S65536x1024 : Shape := ⟨2, ![65536, 1024]⟩
abbrev S65536x1 : Shape := ⟨2, ![65536, 1]⟩
abbrev S1024x1024 : Shape := ⟨2, ![1024, 1024]⟩
abbrev S1024x1 : Shape := ⟨2, ![1024, 1]⟩
abbrev S1x1024x1024 : Shape := ⟨3, ![1, 1024, 1024]⟩
abbrev S1x1024 : Shape := ⟨2, ![1, 1024]⟩
abbrev S1024 : Shape := ⟨1, ![1024]⟩

abbrev nBuf : Space → Nat
  | .hbm => 9
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i32⟩
  | .hbm, ⟨2, _⟩ => ⟨S4x1024x1024, .f32⟩
  | .hbm, ⟨3, _⟩ => ⟨S4x1024, .f32⟩
  | .hbm, ⟨4, _⟩ => ⟨S65536x1024, .f32⟩
  | .hbm, ⟨5, _⟩ => ⟨S65536x1, .i32⟩
  | .hbm, ⟨6, _⟩ => ⟨S4x1024x1024, .bf16⟩
  | .hbm, ⟨7, _⟩ => ⟨S65536x1024, .f32⟩
  | .hbm, ⟨8, _⟩ => ⟨S16x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S4x1024x1024, .bf16⟩
  | .local _ .vmem, ⟨5, _⟩ => ⟨S4x1024, .f32⟩
  | .local _ .vmem, ⟨6, _⟩ => ⟨S1024x1024, .f32⟩
  | .local _ .vmem, ⟨7, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x4096x1024_S65536x1024 : S16x4096x1024.ShapeCasts S65536x1024
  shapeCasts_S16x4096_S65536x1 : S16x4096.ShapeCasts S65536x1
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  natLt_1_32 : 1 < 32
  broadcasts_S1024x1_S1024x1024 : S1024x1.Broadcasts S1024x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  shapeCasts_S65536x1024_S16x4096x1024 : S65536x1024.ShapeCasts S16x4096x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024x1024.size a ≤ S4x1024x1024.size a
  hwx0_2 : ∀ i : grid0.Coords, EltTy.bits .bf16 = 32 ∨ (Rect.block (s := S4x1024x1024) S4x1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x1024.size a
  hwx0_3 : ∀ i : grid0.Coords, EltTy.bits .f32 = 32 ∨ (Rect.block (s := S4x1024) S4x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S65536x1024.size a
  hwx0_4 : ∀ i : grid0.Coords, EltTy.bits .f32 = 32 ∨ (Rect.block (s := S65536x1024) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S16x4096 : Shape := ⟨2, ![16, 4096]⟩
abbrev S4x1024x1024 : Shape := ⟨3, ![4, 1024, 1024]⟩
abbrev S4x1024 : Shape := ⟨2, ![4, 1024]⟩
abbrev S_ : Shape := ⟨0, ![]⟩
abbrev S16x4096x1 : Shape := ⟨3, ![16, 4096, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i32⟩
  | .hbm, ⟨2, _⟩ => ⟨S4x1024x1024, .f32⟩
  | .hbm, ⟨3, _⟩ => ⟨S4x1024, .f32⟩
  | .hbm, ⟨4, _⟩ => ⟨S_, .f32⟩
  | .hbm, ⟨5, _⟩ => ⟨S16x4096x1024, .f32⟩
  | .hbm, ⟨6, _⟩ => ⟨S_, .i32⟩
  | .hbm, ⟨7, _⟩ => ⟨S16x4096, .i32⟩
  | .hbm, ⟨8, _⟩ => ⟨S16x4096, .i1⟩
  | .hbm, ⟨9, _⟩ => ⟨S16x4096x1, .i1⟩
  | .hbm, ⟨10, _⟩ => ⟨S16x4096x1, .f32⟩
  | .hbm, ⟨11, _⟩ => ⟨S1x1024x1024, .f32⟩
  | .hbm, ⟨12, _⟩ => ⟨S1024x1024, .f32⟩
  | .hbm, ⟨13, _⟩ => ⟨S16x4096x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S16x4096x1024, .f32⟩
  | .hbm, ⟨22, _⟩ => ⟨S_, .i32⟩
  | .hbm, ⟨23, _⟩ => ⟨S16x4096, .i32⟩
  | .hbm, ⟨24, _⟩ => ⟨S16x4096, .i1⟩
  | .hbm, ⟨25, _⟩ => ⟨S16x4096x1, .i1⟩
  | .hbm, ⟨26, _⟩ => ⟨S16x4096x1, .f32⟩
  | .hbm, ⟨27, _⟩ => ⟨S1x1024x1024, .f32⟩
  | .hbm, ⟨28, _⟩ => ⟨S1024x1024, .f32⟩
  | .hbm, ⟨29, _⟩ => ⟨S16x4096x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S16x4096x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S_, .i32⟩
  | .hbm, ⟨39, _⟩ => ⟨S16x4096, .i32⟩
  | .hbm, ⟨40, _⟩ => ⟨S16x4096, .i1⟩
  | .hbm, ⟨41, _⟩ => ⟨S16x4096x1, .i1⟩
  | .hbm, ⟨42, _⟩ => ⟨S16x4096x1, .f32⟩
  | .hbm, ⟨43, _⟩ => ⟨S1x1024x1024, .f32⟩
  | .hbm, ⟨44, _⟩ => ⟨S1024x1024, .f32⟩
  | .hbm, ⟨45, _⟩ => ⟨S16x4096x1024, .f32⟩
  | .hbm, ⟨46, _⟩ => ⟨S1x1024, .f32⟩
  | .hbm, ⟨47, _⟩ => ⟨S1024, .f32⟩
  | .hbm, ⟨48, _⟩ => ⟨S1x1x1024, .f32⟩
  | .hbm, ⟨49, _⟩ => ⟨S16x4096x1024, .f32⟩
  | .hbm, ⟨50, _⟩ => ⟨S16x4096x1024, .f32⟩
  | .hbm, ⟨51, _⟩ => ⟨S16x4096x1024, .f32⟩
  | .hbm, ⟨52, _⟩ => ⟨S16x4096x1024, .f32⟩
  | .hbm, ⟨53, _⟩ => ⟨S16x4096x1024, .f32⟩
  | .hbm, ⟨54, _⟩ => ⟨S_, .i32⟩
  | .hbm, ⟨55, _⟩ => ⟨S16x4096, .i32⟩
  | .hbm, ⟨56, _⟩ => ⟨S16x4096, .i1⟩
  | .hbm, ⟨57, _⟩ => ⟨S16x4096x1, .i1⟩
  | .hbm, ⟨58, _⟩ => ⟨S16x4096x1, .f32⟩
  | .hbm, ⟨59, _⟩ => ⟨S1x1024x1024, .f32⟩
  | .hbm, ⟨60, _⟩ => ⟨S1024x1024, .f32⟩
  | .hbm, ⟨61, _⟩ => ⟨S16x4096x1024, .f32⟩
  | .hbm, ⟨62, _⟩ => ⟨S1x1024, .f32⟩
  | .hbm, ⟨63, _⟩ => ⟨S1024, .f32⟩
  | .hbm, ⟨64, _⟩ => ⟨S1x1x1024, .f32⟩
  | .hbm, ⟨65, _⟩ => ⟨S16x4096x1024, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | .hbm, ⟨69, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_2 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩

abbrev nD : Nat := 1
abbrev τ : Topo := Topo.v7x

variable {F : FTy → Type} [FloatOps F]

class Facts₀ : Prop where
  bcast_S_S16x4096x1024 : S_.BroadcastsInDim S16x4096x1024 (![] : Fin 0 → Fin S16x4096x1024.rank)
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  slices_S4x1024x1024_S1x1024x1024_0_0_0 : S4x1024x1024.Slices ![0, 0, 0] S1x1024x1024
  shapeCasts_S1x1024x1024_S1024x1024 : S1x1024x1024.ShapeCasts S1024x1024
  slices_S4x1024_S1x1024_0_0 : S4x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S16x4096x1024_0_1_2 : S1x1x1024.BroadcastsInDim S16x4096x1024 (![0, 1, 2] : Fin 3 → Fin S16x4096x1024.rank)
  bcast_S16x4096x1_S16x4096x1024_0_1_2 : S16x4096x1.BroadcastsInDim S16x4096x1024 (![0, 1, 2] : Fin 3 → Fin S16x4096x1024.rank)
  slices_S4x1024x1024_S1x1024x1024_1_0_0 : S4x1024x1024.Slices ![1, 0, 0] S1x1024x1024
  slices_S4x1024_S1x1024_1_0 : S4x1024.Slices ![1, 0] S1x1024
  slices_S4x1024x1024_S1x1024x1024_2_0_0 : S4x1024x1024.Slices ![2, 0, 0] S1x1024x1024
  slices_S4x1024_S1x1024_2_0 : S4x1024.Slices ![2, 0] S1x1024
  slices_S4x1024x1024_S1x1024x1024_3_0_0 : S4x1024x1024.Slices ![3, 0, 0] S1x1024x1024
  slices_S4x1024_S1x1024_3_0 : S4x1024.Slices ![3, 0] S1x1024
  dot_S16x4096x1024_S1024x1024_S16x4096x1024_2_1_01_0_n_n_wf : DotDims.WF S16x4096x1024 S1024x1024 S16x4096x1024 [2] [1] [0, 1] [0] [] []

variable [Facts₀]

def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf

class Facts : Prop extends Facts₀ where

variable [Facts]
-- ==== Proof.LibReadBack.lean ====
/-
  A load that reads back a whole buffer after a sequence of stores, the LAST of which overwrote the whole buffer,
  reads that last store's payload, whatever the earlier stores were.
-/
import Idealize.ShloMosaic.Lib.Pipeline.Value

noncomputable section

namespace Idealize.ShloMosaic.LibReadBack

open Idealize.ShloMosaic

variable {Val : EltTy → Type} {S : Shape} {e : EltTy}

/-- Reading the whole shape (zero offsets, the shape's own sizes) after stores of which the most recent one wrote the whole
    shape gives that store's payload `w`: every index is under the most recent store's rectangle, so the earlier stores
    `L` are all overwritten. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Idealize.ShloMosaic.LibReadBack

end
-- ==== Proof.Body.lean ====
/-
  What one grid point leaves in the output block, as a pure function of the four input blocks it was given.

  The body stores the first branch's masked contribution, then three times reads the block back and adds the next
  branch's masked contribution. Every one of the four stores overwrites the whole block, so each read-back sees exactly
  the previous store's value, and the block ends at the last store's value: the left-nested sum
  ((c₀ + c₁) + c₂) + c₃ of the four contributions, each a function of the row tile `x0`, the feature column `x1`, one
  slice of the weights `x2` and one row of the biases `x3`.
-/
import proofs.«159065_j85925115724421_2_alg».proof.Proof.Gen.KernelIdeal.Frame
import proofs.«159065_j85925115724421_2_alg».proof.Proof.LibReadBack
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen Idealize.ShloMosaic.LibReadBack

variable {F : FTy → Type} [FloatOps F]

theorem zero2 : (![0, 0] : Fin 2 → Nat) = fun _ => 0 := funext fun a => by fin_cases a <;> rfl

/-- Slice `k` of the staged weights, as the body loads it: a [1, 1024, 1024] rectangle at row `k`. -/
def wslice (x2 : Vec F S4x1024x1024 .bf16) : (k : Fin 4) → Vec F S1x1024x1024 .bf16
  | 0 => (View.ld x2 (Rect.unit (s := S4x1024x1024) ![0, 0, 0] S1x1024x1024.size inb_S4x1024x1024_S1x1024x1024_0_0_0))
  | 1 => (View.ld x2 (Rect.unit (s := S4x1024x1024) ![1, 0, 0] S1x1024x1024.size inb_S4x1024x1024_S1x1024x1024_1_0_0))
  | 2 => (View.ld x2 (Rect.unit (s := S4x1024x1024) ![2, 0, 0] S1x1024x1024.size inb_S4x1024x1024_S1x1024x1024_2_0_0))
  | 3 => (View.ld x2 (Rect.unit (s := S4x1024x1024) ![3, 0, 0] S1x1024x1024.size inb_S4x1024x1024_S1x1024x1024_3_0_0))

/-- Row `k` of the staged biases, as the body loads it: a [1, 1024] rectangle at row `k`. -/
def brow (x3 : Vec F S4x1024 .f32) : (k : Fin 4) → Vec F S1x1024 .f32
  | 0 => (View.ld x3 (Rect.unit (s := S4x1024) ![0, 0] S1x1024.size inb_S4x1024_S1x1024_0_0))
  | 1 => (View.ld x3 (Rect.unit (s := S4x1024) ![1, 0] S1x1024.size inb_S4x1024_S1x1024_1_0))
  | 2 => (View.ld x3 (Rect.unit (s := S4x1024) ![2, 0] S1x1024.size inb_S4x1024_S1x1024_2_0))
  | 3 => (View.ld x3 (Rect.unit (s := S4x1024) ![3, 0] S1x1024.size inb_S4x1024_S1x1024_3_0))

/-- The block after the body: the fourth store's value, over the third's read back, over the second's, over the first's. -/
def block (x0 : Vec F S1024x1024 .f32) (x1 : Vec F S1024x1 .i32) (x2 : Vec F S4x1024x1024 .bf16) (x3 : Vec F S4x1024 .f32) :
    Vec F S1024x1024 .f32 :=
  k0_pay1 (k0_pay9 (k0_pay2 x0) (k0_pay3 x1) (wslice x2 3) (brow x3 3))
    (k0_pay10 (k0_pay8 (k0_pay2 x0) (k0_pay3 x1) (wslice x2 2) (brow x3 2)
      (k0_pay7 (k0_pay5 x0 x1 (wslice x2 1) (brow x3 1)) (k0_pay6 (k0_pay4 x0 x1 (wslice x2 0) (brow x3 0))))))

/-- The pieces the body's run leaves in the output's staging buffer read back as `block` of the input blocks: the last
    store covers the block; each load of the output reads the store before it (all earlier stores being overwritten);
    each load of an input reads the staged block through its rectangle. -/
theorem out_eq (c : Dev nD) (i : grid0.Coords) (a1 : Memref sig .tc .vmem S1024x1024 .f32) (h1 : a1.IsWhole) (a2 : Memref sig .tc .vmem S1024x1 .i32) (h2 : a2.IsWhole) (a3 : Memref sig .tc .vmem S4x1024x1024 .bf16) (h3 : a3.IsWhole) (a4 : Memref sig .tc .vmem S4x1024 .f32) (h4 : a4.IsWhole) (a5 : Memref sig .tc .vmem S1024x1024 .f32) (h5 : a5.IsWhole) (x0 : Vec F S1024x1024 .f32) (x1 : Vec F S1024x1 .i32) (x2 : Vec F S4x1024x1024 .bf16) (x3 : Vec F S4x1024 .f32) :
    out0_A_4 c i a1 h1 a2 h2 a3 h3 a4 h4 a5 h5 x0 x1 x2 x3 = block x0 x1 x2 x3 := by
  unfold out0_A_4
  rw [View.read_writes_eq_canon _ _ _ (cover0_A_4 c i a1 h1 a2 h2 a3 h3 a4 h4 a5 h5 x0 x1 x2 x3)]
  unfold kernelRun0_A
  dsimp only
  rw [View.canon_cons_unit_zero (S := S1024x1024) zero2]
  sl_unfold_words
  simp only [readCov_cons_unit_zero (S := S1024x1024) _ zero2, View.readCov_unit_zero (S := S1024x1024) _ zero2,
    View.readAt_eq_ld, h1.read_unread, h2.read_unread, h3.read_unread, h4.read_unread,
    View.ld_unit_zero (S := S1024x1024) zero2, View.ld_unit_zero (S := S1024x1) zero2]
  rfl

end Cert.KernelIdeal.Body

end
-- ==== Proof.Spec.lean ====
/-
  The specification: the result array as one function of the argument arrays, index by index, over the extended reals.

  Each of the 16 · 4096 rows carries a feature word. For each of the four branches k (feature sizes 32, 64, 128, 256) the
  row's 1024 inputs go through that branch's affine map, out[o] = Σᵢ x[i] · w[k, o, i] + b[k, o], and the result is
  multiplied by the gate "the row's feature word equals the branch's size" (1 or 0). The four gated terms are added from
  left to right. Nothing else enters: both programs are this function, the one over the [16, 4096, 1024] array, the other
  over the same data flattened to [65536, 1024] and cut in tiles of 1024 rows.
-/
import Idealize.ShloMosaic.PureOps.Ideal
import Idealize.ShloMosaic.Lib.ValueIdx

noncomputable section

open scoped BigOperators

namespace Cert.Spec

open Idealize.ShloMosaic Idealize.ShloMosaic.ValueIdx

/-- The gate of a branch: 1 when the row's feature word `f` is the branch's size `c`, else 0 (the comparison's bit as a number). -/
def gate (f c : BitVec 32) : EReal := (((IntOp.cmpi .eq f c).toNat : ℝ) : EReal)

/-- A one-bit word widened to 32 bits by zeros and then read as a SIGNED integer is the bit itself: the widened word is 0 or 1,
    never negative. (One program converts the comparison's bit this way, the other reads the bit unsigned.) -/
theorem widened_bit_signed (b : BitVec 1) : (((b.setWidth 32).toInt : ℝ) : EReal) = ((b.toNat : ℝ) : EReal) := by
  have h : (b.setWidth 32).toInt = (b.toNat : Int) := by
    rcases BitVec.eq_zero_or_eq_one b with rfl | rfl <;> decide
  rw [h, Int.cast_natCast]

/-- Branch `k`'s affine map on one row `xr`, at output column `o`: Σᵢ xr[i] · w[k, o, i] + b[k, o]. -/
def affine (xr : Fin 1024 → EReal) (w : (⟨3, ![4, 1024, 1024]⟩ : Shape).Idx → EReal) (b : (⟨2, ![4, 1024]⟩ : Shape).Idx → EReal)
    (k : Fin 4) (o : Fin 1024) : EReal :=
  (∑ i : Fin 1024, xr i * w (ix3 k o i)) + b (ix2 k o)

/-- One row of the result at column `o`: the four gated branches, added left to right. -/
def row (xr : Fin 1024 → EReal) (f : BitVec 32) (w : (⟨3, ![4, 1024, 1024]⟩ : Shape).Idx → EReal)
    (b : (⟨2, ![4, 1024]⟩ : Shape).Idx → EReal) (o : Fin 1024) : EReal :=
  gate f 32#32 * affine xr w b 0 o + gate f 64#32 * affine xr w b 1 o + gate f 128#32 * affine xr w b 2 o
    + gate f 256#32 * affine xr w b 3 o

/-- The result over the [16, 4096, 1024] array: entry (s, t, o) is row (s, t) at column o. -/
def G (x : (⟨3, ![16, 4096, 1024]⟩ : Shape).Idx → EReal) (f : (⟨2, ![16, 4096]⟩ : Shape).Idx → BitVec 32)
    (w : (⟨3, ![4, 1024, 1024]⟩ : Shape).Idx → EReal) (b : (⟨2, ![4, 1024]⟩ : Shape).Idx → EReal) :
    (⟨3, ![16, 4096, 1024]⟩ : Shape).Idx → EReal :=
  fun j => row (fun i => x (ix3 (j 0) (j 1) i)) (f (ix2 (j 0) (j 1))) w b (j 2)

/-- The same over the flattened data: `x` as [65536, 1024], the feature words as a [65536, 1] column; entry (n, o) is row n at
    column o. -/
def Gflat (x : (⟨2, ![65536, 1024]⟩ : Shape).Idx → EReal) (f : (⟨2, ![65536, 1]⟩ : Shape).Idx → BitVec 32)
    (w : (⟨3, ![4, 1024, 1024]⟩ : Shape).Idx → EReal) (b : (⟨2, ![4, 1024]⟩ : Shape).Idx → EReal) :
    (⟨2, ![65536, 1024]⟩ : Shape).Idx → EReal :=
  fun j => row (fun i => x (ix2 (j 0) i)) (f (ix2 (j 0) 0)) w b (j 1)

end Cert.Spec

end
-- ==== Proof.Contrib.lean ====
/-
  One branch's contribution to a tile, read at an entry (p, q) of the tile over the extended reals.

  A tile is 1024 rows by 1024 output columns. For one branch the body forms, from the row tile `v2` (the inputs), the
  feature column `v4`, one weight slice `w` (viewed [1, 1024, 1024]) and one bias row `b` (viewed [1, 1024]):
    - the matrix product contracting the LAST axis of both operands into a zero accumulator: entry (p, q) is
      Σᵢ v2[p, i] · w[0, q, i];
    - plus the bias row broadcast down the rows: + b[0, q];
    - times the gate column broadcast along the columns: the comparison bit of v4[p, 0] with the branch's size, widened with
      zeros and converted as a signed integer, which is the bit itself.
-/
import proofs.«159065_j85925115724421_2_alg».proof.Proof.Gen.KernelIdeal.Skeleton
import proofs.«159065_j85925115724421_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Contrib

open Cert.KernelIdeal Cert.KernelIdeal.Gen Cert.Spec Idealize.ShloMosaic Idealize.ShloMosaic.ValueIdx

/-- The gate column broadcast along the columns, at (p, q): the gate of row p. -/
theorem gate_apply (v4 : IVec S1024x1 32) (cst : BitVec 32) (p q : Fin 1024) :
    broadcastTo S1024x1024 (sitofp (F := Ideal) .f32 (extui 32 (cmpi .eq v4 (broadcast S1024x1 cst)) natLt_1_32))
      broadcasts_S1024x1_S1024x1024 (ix2 p q) = gate (v4 (ix2 p 0)) cst := by
  rw [broadcastTo_apply _ broadcasts_S1024x1_S1024x1024 (ix2 p q) (ix2 p 0) (fun a => by
    match a with
    | ⟨0, _⟩ => show p.val = if (1024 : Nat) = 1 then 0 else p.val; rw [if_neg (by decide)]
    | ⟨1, _⟩ => show 0 = if (1 : Nat) = 1 then 0 else q.val; rw [if_pos rfl])]
  exact widened_bit_signed _

/-- The bias row, flattened and re-expanded (the two casts cancel) and broadcast down the rows, at (p, q): the row's entry q. -/
theorem bias_apply (b : FVec Ideal S1x1024 .f32) (p q : Fin 1024) :
    broadcastTo S1024x1024 (shapeCast S1x1024 (shapeCast S1024 b shapeCasts_S1x1024_S1024) shapeCasts_S1024_S1x1024)
      broadcasts_S1x1024_S1024x1024 (ix2 p q) = b (ix2 0 q) := by
  rw [shapeCast_shapeCast]
  exact broadcastTo_apply _ broadcasts_S1x1024_S1024x1024 (ix2 p q) (ix2 0 q) (fun a => by
    match a with
    | ⟨0, _⟩ => show 0 = if (1 : Nat) = 1 then 0 else p.val; rw [if_pos rfl]
    | ⟨1, _⟩ => show q.val = if (1024 : Nat) = 1 then 0 else q.val; rw [if_neg (by decide)])

/-- The product's left operand is read, at output entry `j` and contraction index `k`, in row `j 0` (axis 0 of the left operand is
    the output's row axis). -/
theorem lhs_row (j : S1024x1024.Idx) (k : dot_S1024x1024_S1024x1024_S1024x1024_1_1_0_0_n_n.contr.Idx) : (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The product's right operand is read in row `j 1`: axis 0 of the right operand is the output's COLUMN axis (the weight slice is
    stored output-major, and the product contracts its last axis). -/
theorem rhs_row (j : S1024x1024.Idx) (k : dot_S1024x1024_S1024x1024_S1024x1024_1_1_0_0_n_n.contr.Idx) : (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The matrix product into the zero accumulator, at (p, q): both operands are contracted along their LAST axis, so the sum
    runs over the inputs of row p against row q of the weight slice (the slice's leading unit axis dropped by the cast). -/
theorem product_apply (v2 : FVec Ideal S1024x1024 .bf16) (w : FVec Ideal S1x1024x1024 .bf16) (p q : Fin 1024) :
    matmul dot_S1024x1024_S1024x1024_S1024x1024_1_1_0_0_n_n none v2 (shapeCast S1024x1024 w shapeCasts_S1x1024x1024_S1024x1024)
      (constant (F := Ideal) S1024x1024 .f32 0x00000000#32) (ix2 p q) = ∑ i : Fin 1024, v2 (ix2 p i) * w (ix3 0 q i) := by
  refine (Ideal.matmul_constant_zero_apply dot_S1024x1024_S1024x1024_S1024x1024_1_1_0_0_n_n none v2 _ (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k :=
    funext fun a => Fin.ext (by
      match a with
      | ⟨0, _⟩ => exact lhs_row _ _
      | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k :=
    funext fun a => Fin.ext (by
      match a with
      | ⟨0, _⟩ => exact rhs_row _ _
      | ⟨1, _⟩ => exact (dot_S1024x1024_S1024x1024_S1024x1024_1_1_0_0_n_n.rhsIdx_val_of_single rfl _ _).trans hk)
  rw [el, er, shapeCast_apply w shapeCasts_S1x1024x1024_S1024x1024 (ix2 q k) (ix3 0 q k) (by
    rw [Shape.rowMajor_val_three, Shape.rowMajor_val_two]
    show (0 * 1024 + q.val) * 1024 + k.val = q.val * 1024 + k.val
    omega)]

/-- One branch's gated contribution to a tile, as the body computes it: gate column × (product + bias row). -/
def contribution (v2 : FVec Ideal S1024x1024 .bf16) (v4 : IVec S1024x1 32) (w : FVec Ideal S1x1024x1024 .bf16)
    (b : FVec Ideal S1x1024 .f32) (cst : BitVec 32) : FVec Ideal S1024x1024 .f32 :=
  mulf (broadcastTo S1024x1024 (sitofp (F := Ideal) .f32 (extui 32 (cmpi .eq v4 (broadcast S1024x1 cst)) natLt_1_32))
      broadcasts_S1024x1_S1024x1024)
    (addf (matmul dot_S1024x1024_S1024x1024_S1024x1024_1_1_0_0_n_n none v2 (shapeCast S1024x1024 w shapeCasts_S1x1024x1024_S1024x1024)
        (constant (F := Ideal) S1024x1024 .f32 0x00000000#32))
      (broadcastTo S1024x1024 (shapeCast S1x1024 (shapeCast S1024 b shapeCasts_S1x1024_S1024) shapeCasts_S1024_S1x1024)
        broadcasts_S1x1024_S1024x1024))

/-- One branch's gated contribution at (p, q): the gate of row p times the affine map of the slice on row p, at column q. -/
theorem contribution_apply (v2 : FVec Ideal S1024x1024 .bf16) (v4 : IVec S1024x1 32) (w : FVec Ideal S1x1024x1024 .bf16)
    (b : FVec Ideal S1x1024 .f32) (cst : BitVec 32) (p q : Fin 1024) :
    contribution v2 v4 w b cst (ix2 p q)
      = gate (v4 (ix2 p 0)) cst * ((∑ i : Fin 1024, v2 (ix2 p i) * w (ix3 0 q i)) + b (ix2 0 q)) := by
  unfold contribution
  rw [mulf_apply, addf_apply, gate_apply, bias_apply, product_apply]

end Cert.KernelIdeal.Contrib

end
-- ==== Proof.BlockValue.lean ====
/-
  The block a grid point leaves, read at an entry (p, q) over the extended reals: row p of the tile through the specification's
  row function, at column q.

  The block is the left-nested sum ((c₀ + c₁) + c₂) + c₃ of the four branches' gated contributions (the casts of a tile to its own
  shape and the narrowing of the inputs to a 16-bit format are identities on extended reals). Branch k reads slice k of the
  staged weights and row k of the staged biases through a rectangle at offset k, so its contribution at (p, q) is
  gate(f[p], sizeₖ) · (Σᵢ x[p, i] · w[k, q, i] + b[k, q]).
-/
import proofs.«159065_j85925115724421_2_alg».proof.Proof.Body
import proofs.«159065_j85925115724421_2_alg».proof.Proof.Contrib

noncomputable section

open scoped BigOperators

namespace Cert.KernelIdeal.BlockValue

open Cert.KernelIdeal Cert.KernelIdeal.Gen Cert.KernelIdeal.Body Cert.KernelIdeal.Contrib Cert.Spec
open Idealize.ShloMosaic Idealize.ShloMosaic.ValueIdx

/-- Slice `k` of the weights, loaded through the [1, 1024, 1024] rectangle at row `k`, at (0, q, i): the weights at (k, q, i). -/
theorem wslice_apply (x2 : FVec Ideal S4x1024x1024 .bf16) (k : Fin 4) (q i : Fin 1024) :
    wslice (F := Ideal) x2 k (ix3 0 q i) = x2 (ix3 k q i) := by
  have hq := q.isLt; have hi := i.isLt
  match k with
  | 0 | 1 | 2 | 3 =>
    refine congrArg x2 (funext fun a => Fin.ext ?_)
    match a with
    | ⟨0, _⟩ => rfl
    | ⟨1, _⟩ => show 0 + 1 * q.val = q.val; omega
    | ⟨2, _⟩ => show 0 + 1 * i.val = i.val; omega

/-- Row `k` of the biases, loaded through the [1, 1024] rectangle at row `k`, at (0, q): the biases at (k, q). -/
theorem brow_apply (x3 : FVec Ideal S4x1024 .f32) (k : Fin 4) (q : Fin 1024) :
    brow (F := Ideal) x3 k (ix2 0 q) = x3 (ix2 k q) := by
  have hq := q.isLt
  match k with
  | 0 | 1 | 2 | 3 =>
    refine congrArg x3 (funext fun a => Fin.ext ?_)
    match a with
    | ⟨0, _⟩ => rfl
    | ⟨1, _⟩ => show 0 + 1 * q.val = q.val; omega

/-- The inputs narrowed to the 16-bit format: unchanged as extended reals. -/
theorem narrowed_eq (x0 : FVec Ideal S1024x1024 .f32) : k0_pay2 (F := Ideal) x0 = x0 := by
  unfold k0_pay2
  rw [shapeCast_self]
  rfl

/-- The feature column cast to its own shape: unchanged. -/
theorem features_eq (x1 : IVec S1024x1 32) : k0_pay3 (F := Ideal) x1 = x1 := by
  unfold k0_pay3
  exact shapeCast_self _ _

/-- The first two stores' payloads are the contributions of branches 0 and 1; -/
theorem first_eq (x0 : FVec Ideal S1024x1024 .f32) (x1 : IVec S1024x1 32) (w : FVec Ideal S1x1024x1024 .bf16) (b : FVec Ideal S1x1024 .f32) :
    k0_pay4 (F := Ideal) x0 x1 w b = contribution (k0_pay2 (F := Ideal) x0) (k0_pay3 (F := Ideal) x1) w b 32#32 := rfl
theorem second_eq (x0 : FVec Ideal S1024x1024 .f32) (x1 : IVec S1024x1 32) (w : FVec Ideal S1x1024x1024 .bf16) (b : FVec Ideal S1x1024 .f32) :
    k0_pay5 (F := Ideal) x0 x1 w b = contribution (k0_pay2 (F := Ideal) x0) (k0_pay3 (F := Ideal) x1) w b 64#32 := rfl
/-- the third store's payload is what was read back plus the contribution of branch 2; -/
theorem third_eq (v2 : FVec Ideal S1024x1024 .bf16) (v4 : IVec S1024x1 32) (w : FVec Ideal S1x1024x1024 .bf16) (b : FVec Ideal S1x1024 .f32)
    (acc : FVec Ideal S1024x1024 .f32) :
    k0_pay8 (F := Ideal) v2 v4 w b acc
      = addf (shapeCast S1024x1024 acc shapeCasts_S1024x1024_S1024x1024) (contribution v2 v4 w b 128#32) := rfl
/-- and the last addend is the contribution of branch 3. -/
theorem fourth_eq (v2 : FVec Ideal S1024x1024 .bf16) (v4 : IVec S1024x1 32) (w : FVec Ideal S1x1024x1024 .bf16) (b : FVec Ideal S1x1024 .f32) :
    k0_pay9 (F := Ideal) v2 v4 w b = contribution v2 v4 w b 256#32 := rfl

/-- The block at (p, q): the specification's row function on row p of the tile, with the tile's own feature word, at column q. -/
theorem block_apply (x0 : FVec Ideal S1024x1024 .f32) (x1 : IVec S1024x1 32) (x2 : FVec Ideal S4x1024x1024 .bf16)
    (x3 : FVec Ideal S4x1024 .f32) (p q : Fin 1024) :
    block (F := Ideal) x0 x1 x2 x3 (ix2 p q) = row (fun i => x0 (ix2 p i)) (x1 (ix2 p 0)) x2 x3 q := by
  unfold block
  rw [fourth_eq, third_eq, second_eq, first_eq]
  unfold k0_pay1 k0_pay10 k0_pay7 k0_pay6
  simp only [shapeCast_self, narrowed_eq, features_eq]
  rw [addf_apply, addf_apply, addf_apply, contribution_apply, contribution_apply, contribution_apply, contribution_apply]
  simp only [wslice_apply, brow_apply]
  rfl

end Cert.KernelIdeal.BlockValue

end
-- ==== Proof.ArrayValue.lean ====
/-
  From tiles to the array: after the 64 grid points, the kernel's [65536, 1024] result array holds the flat specification of the
  arrays the launch found.

  Grid point t is given rows 1024·t … 1024·t + 1023 of the flattened inputs and of the feature column, and all of the weights and
  biases; it writes back the same rows of the result. The tile's entry (p, q) is the specification's row function on row
  1024·t + p, which is entry (1024·t + p, q) of the flat specification. Every row n lies in the tile of point n / 1024, so the
  64 tiles fill the array.
-/
import proofs.«159065_j85925115724421_2_alg».proof.Proof.Gen.KernelIdeal.Frame
import proofs.«159065_j85925115724421_2_alg».proof.Proof.BlockValue
import Idealize.ShloMosaic.Lib.Pipeline.Value
import Idealize.ShloMosaic.Lib.Tactic

noncomputable section

open scoped BigOperators

namespace Cert.KernelIdeal.ArrayValue

open Cert.KernelIdeal Cert.KernelIdeal.Gen Cert.KernelIdeal.Body Cert.KernelIdeal.BlockValue Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 64 grid points: the inputs' rows, the feature column and the result move with the
    point along axis 0; the weights and the biases are the one block (0, …, 0) at every point. -/
theorem index_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 64 := by
  have h : grid0.N = 64 := N_0
  have h' : t.val < grid0.N := t.isLt
  omega

/-- The inputs' tile at point t, entry (p, i): the flattened inputs at row 1024·t + p. -/
theorem tile_x (c : Dev nD) (t : Fin cfg0.N) (p i : Fin 1024) (hn : t.val * 1024 + p.val < 65536) :
    (iblk m c 0 t : FVec Ideal S1024x1024 .f32) (ix2 p i) = V m c main_v0 (ix2 ⟨t.val * 1024 + p.val, hn⟩ i) := by
  obtain ⟨e0, e1, -⟩ := index_maps t
  unfold iblk
  rw [View.read_apply]
  show V m c main_v0 _ = V m c main_v0 _
  refine congrArg (V m c main_v0) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 1024 + 1 * i.val = i.val; rw [e1]; omega

/-- The feature column's tile at point t, entry (p, 0): the column at row 1024·t + p. -/
theorem tile_f (c : Dev nD) (t : Fin cfg0.N) (p : Fin 1024) (hn : t.val * 1024 + p.val < 65536) :
    (iblk m c 1 t : IVec S1024x1 32) (ix2 p 0) = V m c main_v1 (ix2 ⟨t.val * 1024 + p.val, hn⟩ 0) := by
  obtain ⟨-, -, e0, e1, -⟩ := index_maps t
  unfold iblk
  rw [View.read_apply]
  show V m c main_v1 _ = V m c main_v1 _
  refine congrArg (V m c main_v1) (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 1 + 1 * 0 = 0; rw [e1]

/-- The weights' block at every point is the whole staged array. -/
theorem all_w (c : Dev nD) (t : Fin cfg0.N) : (iblk m c 2 t : FVec Ideal S4x1024x1024 .bf16) = V m c main_v2 := by
  obtain ⟨-, -, -, -, e0, e1, e2, -⟩ := index_maps t
  funext y
  unfold iblk
  rw [View.read_apply]
  show V m c main_v2 _ = V m c main_v2 _
  refine congrArg (V m c main_v2) (funext fun a => Fin.ext ?_)
  match a with
  | ⟨0, _⟩ => show win0_2.index t (0 : Fin 3) * 4 + 1 * (y 0).val = (y 0).val; rw [e0]; omega
  | ⟨1, _⟩ => show win0_2.index t (1 : Fin 3) * 1024 + 1 * (y 1).val = (y 1).val; rw [e1]; omega
  | ⟨2, _⟩ => show win0_2.index t (2 : Fin 3) * 1024 + 1 * (y 2).val = (y 2).val; rw [e2]; omega

/-- The biases' block at every point is the whole array. -/
theorem all_b (c : Dev nD) (t : Fin cfg0.N) : (iblk m c 3 t : FVec Ideal S4x1024 .f32) = V m c main_arg3 := by
  obtain ⟨-, -, -, -, -, -, -, e0, e1, -⟩ := index_maps t
  funext y
  unfold iblk
  rw [View.read_apply]
  show V m c main_arg3 _ = V m c main_arg3 _
  refine congrArg (V m c main_arg3) (funext fun a => Fin.ext ?_)
  match a with
  | ⟨0, _⟩ => show win0_3.index t (0 : Fin 2) * 4 + 1 * (y 0).val = (y 0).val; rw [e0]; omega
  | ⟨1, _⟩ => show win0_3.index t (1 : Fin 2) * 1024 + 1 * (y 1).val = (y 1).val; rw [e1]; omega

/-- The flat specification of the arrays as the launch finds them (the host lines before it have run): what the result array
    is to end holding. -/
def flat (c : Dev nD) : S65536x1024.Idx → EReal :=
  Gflat (V m c main_v0) (V m c main_v1) (V m c main_v2) (V m c main_arg3)

/-- WHAT POINT t WRITES BACK is tile t of the flat specification. -/
theorem flushed_eq (c : Dev nD) (t : Fin cfg0.N) :
    (dats m 0 c).flushed 4 t = ((cfg0.win 4).blk t).view.read (Elt Ideal) (flat m c) := by
  show (cfg0.win 4).cut (grid0.coords t) ((dats m 0 c).after 4 t) = _
  rw [after0_4]
  unfold outsAt0
  rw [out_eq]
  funext j
  obtain ⟨p, q, rfl⟩ : ∃ (p q : Fin 1024), j = ix2 p q := ⟨j 0, j 1, eq_ix2 j⟩
  have ht := point_lt t
  have hp := p.isLt
  have hn : t.val * 1024 + p.val < 65536 := by omega
  obtain ⟨-, -, -, -, -, -, -, -, -, e0, e1⟩ := index_maps t
  rw [View.read_apply]
  have he : ((cfg0.win 4).blk t).view.emb (ix2 p q) = ix2 ⟨t.val * 1024 + p.val, hn⟩ q :=
    funext fun a => Fin.ext (by
      match a with
      | ⟨0, _⟩ => show win0_4.index t (0 : Fin 2) * 1024 + 1 * p.val = t.val * 1024 + p.val; rw [e0]; omega
      | ⟨1, _⟩ => show win0_4.index t (1 : Fin 2) * 1024 + 1 * q.val = q.val; rw [e1]; omega)
  show block (iblk m c 0 t) (iblk m c 1 t) (iblk m c 2 t) (iblk m c 3 t) (ix2 p q)
    = flat m c (((cfg0.win 4).blk t).view.emb (ix2 p q))
  rw [he]
  refine (block_apply _ _ _ _ p q).trans ?_
  show row (fun i => (iblk m c 0 t : FVec Ideal S1024x1024 .f32) (ix2 p i)) ((iblk m c 1 t : IVec S1024x1 32) (ix2 p 0))
      (iblk m c 2 t : FVec Ideal S4x1024x1024 .bf16) (iblk m c 3 t : FVec Ideal S4x1024 .f32) q
    = row (fun i => V m c main_v0 (ix2 ⟨t.val * 1024 + p.val, hn⟩ i)) (V m c main_v1 (ix2 ⟨t.val * 1024 + p.val, hn⟩ 0))
      (V m c main_v2) (V m c main_arg3) q
  rw [tile_f m c t p hn, all_w, all_b]
  simp only [tile_x m c t p _ hn]

/-- A row-and-column index is in point t's tile iff each coordinate is in the tile's range on its axis. -/
theorem mem_tile (t : Fin cfg0.N) (i : S65536x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v3).slice (win0_4.rect t)).set ↔ _
  rw [View.set_slice_whole, Rect.mem_set_unit]
  exact Iff.rfl

/-- Every index of the result array is in the tile of point (row / 1024), which is written back. -/
theorem covered (i : S65536x1024.Idx) : ∃ t : Fin cfg0.N, (cfg0.win 4).flush t = true ∧ i ∈ ((cfg0.win 4).blk t).view.set := by
  have h0 : (i 0).val < 65536 := (i 0).isLt
  have h1 : (i 1).val < 1024 := (i 1).isLt
  have hN : grid0.N = 64 := N_0
  have hlt : (i 0).val / 1024 < grid0.N := by rw [hN]; omega
  refine ⟨⟨(i 0).val / 1024, hlt⟩, flush0_4 _, ?_⟩
  rw [mem_tile]
  obtain ⟨-, -, -, -, -, -, -, -, -, e0, e1⟩ := index_maps ⟨(i 0).val / 1024, hlt⟩
  intro a
  match a with
  | ⟨0, _⟩ =>
    show win0_4.index ⟨(i 0).val / 1024, hlt⟩ (0 : Fin 2) * 1024 ≤ (i 0).val
      ∧ (i 0).val < win0_4.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, hlt⟩ (1 : Fin 2) * 1024 ≤ (i 1).val
      ∧ (i 1).val < win0_4.index ⟨(i 0).val / 1024, hlt⟩ (1 : Fin 2) * 1024 + 1024
    rw [e1]; omega

/-- THE RESULT ARRAY AFTER THE RUN is the flat specification of the arrays the launch found. -/
theorem final (c : Dev nD) : (dats m 0 c).arrAt 4 cfg0.N = flat m c :=
  (dats m 0 c).arrAt_eq_of_cover 4 (flat m c) (fun t _ => flushed_eq m c t) (covered)

end Cert.KernelIdeal.ArrayValue

end
-- ==== Proof.Flatten.lean ====
/-
  Flattening the two leading axes commutes with the specification.

  A cast between [16, 4096, 1024] and [65536, 1024] keeps row-major positions: entry (s, t, o) of the one is entry (s · 4096 + t, o)
  of the other, and likewise (s, t) of the [16, 4096] feature words is (s · 4096 + t, 0) of the [65536, 1] column. The specification
  works row by row, so computing it on the flattened data and casting the result back is computing it on the original data.
-/
import proofs.«159065_j85925115724421_2_alg».proof.Proof.Spec
import Idealize.ShloMosaic.Lib.Pipeline.Value

noncomputable section

open scoped BigOperators

namespace Cert.Spec

open Idealize.ShloMosaic Idealize.ShloMosaic.ValueIdx

/-- The flat specification of the flattened inputs, cast back to three axes, is the specification of the inputs. -/
theorem unflatten (x : (⟨3, ![16, 4096, 1024]⟩ : Shape).Idx → EReal) (f : (⟨2, ![16, 4096]⟩ : Shape).Idx → BitVec 32)
    (w : (⟨3, ![4, 1024, 1024]⟩ : Shape).Idx → EReal) (b : (⟨2, ![4, 1024]⟩ : Shape).Idx → EReal)
    (hx : (⟨3, ![16, 4096, 1024]⟩ : Shape).ShapeCasts ⟨2, ![65536, 1024]⟩)
    (hf : (⟨2, ![16, 4096]⟩ : Shape).ShapeCasts ⟨2, ![65536, 1]⟩)
    (ho : (⟨2, ![65536, 1024]⟩ : Shape).ShapeCasts ⟨3, ![16, 4096, 1024]⟩) :
    shapeCast (⟨3, ![16, 4096, 1024]⟩ : Shape)
      (Gflat (shapeCast (⟨2, ![65536, 1024]⟩ : Shape) x hx) (shapeCast (⟨2, ![65536, 1]⟩ : Shape) f hf) w b) ho = G x f w b := by
  funext j
  obtain ⟨s, t, o, rfl⟩ : ∃ (s : Fin 16) (t : Fin 4096) (o : Fin 1024), j = ix3 s t o := ⟨j 0, j 1, j 2, eq_ix3 j⟩
  have hs := s.isLt; have ht := t.isLt; have ho' := o.isLt
  have hn : s.val * 4096 + t.val < 65536 := by omega
  rw [shapeCast_apply _ ho (ix3 s t o) (ix2 ⟨s.val * 4096 + t.val, hn⟩ o) (by
    rw [Shape.rowMajor_val_two, Shape.rowMajor_val_three]
    show (s.val * 4096 + t.val) * 1024 + o.val = (s.val * 4096 + t.val) * 1024 + o.val
    rfl)]
  have e1 : ∀ i : Fin 1024, shapeCast (⟨2, ![65536, 1024]⟩ : Shape) x hx (ix2 ⟨s.val * 4096 + t.val, hn⟩ i) = x (ix3 s t i) :=
    fun i => shapeCast_apply x hx _ (ix3 s t i) (by
      rw [Shape.rowMajor_val_two, Shape.rowMajor_val_three]
      show (s.val * 4096 + t.val) * 1024 + i.val = (s.val * 4096 + t.val) * 1024 + i.val
      rfl)
  have e2 : shapeCast (⟨2, ![65536, 1]⟩ : Shape) f hf (ix2 ⟨s.val * 4096 + t.val, hn⟩ 0) = f (ix2 s t) :=
    shapeCast_apply f hf _ (ix2 s t) (by
      rw [Shape.rowMajor_val_two, Shape.rowMajor_val_two]
      show s.val * 4096 + t.val = (s.val * 4096 + t.val) * 1 + 0
      omega)
  show row (fun i => shapeCast (⟨2, ![65536, 1024]⟩ : Shape) x hx (ix2 ⟨s.val * 4096 + t.val, hn⟩ i))
      (shapeCast (⟨2, ![65536, 1]⟩ : Shape) f hf (ix2 ⟨s.val * 4096 + t.val, hn⟩ 0)) w b o
    = row (fun i => x (ix3 s t i)) (f (ix2 s t)) w b o
  rw [e2]
  simp only [e1]

end Cert.Spec

end
-- ==== Proof.RunValue.lean ====
/-
  The idealized kernel program's run, read: its result array ends at the specification `G` of its four arguments.

  Before the launch the host flattens the inputs [16, 4096, 1024] → [65536, 1024] and the feature words [16, 4096] → [65536, 1],
  and narrows the weights to a 16-bit format (the identity on extended reals); the biases go in as they are. The launch leaves the
  flat specification of those arrays in the [65536, 1024] result; after it the host casts that back to [16, 4096, 1024]. Flattening
  commutes with the specification, so the final array is `G` of the arguments.
-/
import proofs.«159065_j85925115724421_2_alg».proof.Proof.ArrayValue
import proofs.«159065_j85925115724421_2_alg».proof.Proof.Flatten
import Idealize.ShloMosaic.Lib.StableHlo.Run

noncomputable section

open scoped BigOperators

namespace Cert.KernelIdeal.RunValue

open Cert.KernelIdeal Cert.KernelIdeal.Gen Cert.KernelIdeal.ArrayValue Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The launch finds the inputs flattened, -/
theorem entry_x (c : Dev nD) : (V m c main_v0 : S65536x1024.Idx → EReal)
    = shapeCast S65536x1024 (m ((c.tc : Thread nD τ).loc main_arg0)) shapeCasts_S16x4096x1024_S65536x1024 := by
  show StableHlo.after hostOps0 (fun b => m (c, b)) (Proc.devRef .tc main_v0) = _
  after_results
  rfl

/-- the feature words as a column, -/
theorem entry_f (c : Dev nD) : (V m c main_v1 : S65536x1.Idx → BitVec 32)
    = shapeCast S65536x1 (m ((c.tc : Thread nD τ).loc main_arg1)) shapeCasts_S16x4096_S65536x1 := by
  show StableHlo.after hostOps0 (fun b => m (c, b)) (Proc.devRef .tc main_v1) = _
  after_results
  rfl

/-- and the weights narrowed to the 16-bit format: as extended reals, the weights themselves. -/
theorem entry_w (c : Dev nD) : (V m c main_v2 : S4x1024x1024.Idx → EReal) = (m ((c.tc : Thread nD τ).loc main_arg2)) := by
  show StableHlo.after hostOps0 (fun b => m (c, b)) (Proc.devRef .tc main_v2) = _
  after_results
  rfl

/-- The program's result: the launch's array cast back to three axes is the specification of the arguments. -/
theorem result_eq (c : Dev nD) :
    Pipeline.afterTail₀ cfgs (dats m) 0 (V0 m) [hostOps1] c main_v4
      = G (m ((c.tc : Thread nD τ).loc main_arg0)) (m ((c.tc : Thread nD τ).loc main_arg1)) (m ((c.tc : Thread nD τ).loc main_arg2)) (m ((c.tc : Thread nD τ).loc main_arg3)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = flat m c := (Pipeline.withArrays_arr spec0 launch0.win.arr_inj c _ _ 4).trans (final m c)
  rw [hw]
  show shapeCast S16x4096x1024 (flat m c) shapeCasts_S65536x1024_S16x4096x1024 = _
  unfold flat
  rw [entry_x, entry_f, entry_w, V_main_arg3]
  exact unflatten _ _ _ _ _ _ _

/-- THE RUN, READ: every weakly fair execution of the idealized kernel program terminates with its result array at the
    specification of its arguments, and the arguments unchanged. -/
theorem run : θ_run defs (onTc (τ := τ) (main (F := Ideal))) ⟨m, fun _ => 0, ρ⟩ (fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.RunValue

end
-- ==== Proof.RefSpec.lean ====
/-
  The reference computes the specification: its result array, read one operation at a time, is `G` of its four arguments.

  Each branch of the reference slices weight k and bias k out of the stacked arrays, contracts the last axis of x against the
  last axis of the weight slice (so entry (s, t, o) is Σᵢ x[s, t, i] · w[k, o, i]), adds the bias along the last axis, and
  multiplies by the comparison of the feature words with the branch's size, converted to a number. The running sum starts from
  a zero array, and 0 + a = a holds for every extended real, so the zero drops.
-/
import proofs.«159065_j85925115724421_2_alg».proof.Proof.Gen.ReferenceIdeal.Read
import proofs.«159065_j85925115724421_2_alg».proof.Proof.Spec

noncomputable section

open scoped BigOperators

namespace Cert.ReferenceIdeal.RefValue

open Cert.ReferenceIdeal Cert.ReferenceIdeal.Read Cert.Spec Idealize.ShloMosaic Idealize.ShloMosaic.ValueIdx

/-- The first branch's gated term at entry (s, t, o): the gate of row (s, t) against 32, times the affine map of
    weight slice 0 and bias row 0 on that row — the reference's slice, reshape, contraction, bias broadcast, comparison,
    conversion and product each read at the index. -/
theorem branch0 (x0 : S16x4096x1024.Idx → EReal) (x1 : S16x4096.Idx → BitVec 32) (x2 : S4x1024x1024.Idx → EReal) (x3 : S4x1024.Idx → EReal) (s : Fin 16) (t : Fin 4096) (o : Fin 1024) :
    val_main_v14 (F := Ideal) x0 x1 x2 x3 (ix3 s t o)
      = gate (x1 (ix2 s t)) 32#32 * affine (fun i => x0 (ix3 s t i)) x2 x3 0 o := by
  rw [val_main_v14_apply, val_main_v13_apply, val_main_v4_apply, val_main_v3_apply, val_main_v2_apply,
    val_main_v1_apply, val_main_c_apply, val_main_v12_apply, val_main_v7_apply, val_main_v11_apply,
    val_main_v10_apply, val_main_v9_apply, val_main_v8_apply]
  simp only [val_main_v6_apply, val_main_v5_apply]
  have e1 : idx_main_v3 (idx_main_v13 (ix3 s t o)) = ix2 s t :=
    funext fun a => by match a with | ⟨0, _⟩ => rfl | ⟨1, _⟩ => rfl
  have e2 : idx_main_v8 (idx_main_v9 (idx_main_v10 (idx_main_v11 (ix3 s t o)))) = ix2 0 o :=
    funext fun a => Fin.ext (by
      match a with
      | ⟨0, _⟩ => rfl
      | ⟨1, _⟩ => show o.val % 1024 = o.val; have := o.isLt; omega)
  have e3 : ∀ k : Fin 1024, lidx_main_v7 (ix3 s t o) k = ix3 s t k :=
    fun k => funext fun a => by match a with | ⟨0, _⟩ => rfl | ⟨1, _⟩ => rfl | ⟨2, _⟩ => rfl
  have e4 : ∀ k : Fin 1024, idx_main_v5 (idx_main_v6 (ridx_main_v7 (ix3 s t o) k)) = ix3 0 o k :=
    fun k => funext fun a => Fin.ext (by
      have ho := o.isLt; have hk := k.isLt
      match a with
      | ⟨0, _⟩ => rfl
      | ⟨1, _⟩ => show (o.val * 1024 + k.val) / 1024 % 1024 = o.val; omega
      | ⟨2, _⟩ => show (o.val * 1024 + k.val) % 1024 = k.val; omega)
  rw [e1, e2]
  simp only [e3, e4]
  rfl

/-- The second branch's gated term at entry (s, t, o): the gate of row (s, t) against 64, times the affine map of
    weight slice 1 and bias row 1 on that row — the reference's slice, reshape, contraction, bias broadcast, comparison,
    conversion and product each read at the index. -/
theorem branch1 (x0 : S16x4096x1024.Idx → EReal) (x1 : S16x4096.Idx → BitVec 32) (x2 : S4x1024x1024.Idx → EReal) (x3 : S4x1024.Idx → EReal) (s : Fin 16) (t : Fin 4096) (o : Fin 1024) :
    val_main_v29 (F := Ideal) x0 x1 x2 x3 (ix3 s t o)
      = gate (x1 (ix2 s t)) 64#32 * affine (fun i => x0 (ix3 s t i)) x2 x3 1 o := by
  rw [val_main_v29_apply, val_main_v28_apply, val_main_v19_apply, val_main_v18_apply, val_main_v17_apply,
    val_main_v16_apply, val_main_c_0_apply, val_main_v27_apply, val_main_v22_apply, val_main_v26_apply,
    val_main_v25_apply, val_main_v24_apply, val_main_v23_apply]
  simp only [val_main_v21_apply, val_main_v20_apply]
  have e1 : idx_main_v18 (idx_main_v28 (ix3 s t o)) = ix2 s t :=
    funext fun a => by match a with | ⟨0, _⟩ => rfl | ⟨1, _⟩ => rfl
  have e2 : idx_main_v23 (idx_main_v24 (idx_main_v25 (idx_main_v26 (ix3 s t o)))) = ix2 1 o :=
    funext fun a => Fin.ext (by
      match a with
      | ⟨0, _⟩ => rfl
      | ⟨1, _⟩ => show o.val % 1024 = o.val; have := o.isLt; omega)
  have e3 : ∀ k : Fin 1024, lidx_main_v22 (ix3 s t o) k = ix3 s t k :=
    fun k => funext fun a => by match a with | ⟨0, _⟩ => rfl | ⟨1, _⟩ => rfl | ⟨2, _⟩ => rfl
  have e4 : ∀ k : Fin 1024, idx_main_v20 (idx_main_v21 (ridx_main_v22 (ix3 s t o) k)) = ix3 1 o k :=
    fun k => funext fun a => Fin.ext (by
      have ho := o.isLt; have hk := k.isLt
      match a with
      | ⟨0, _⟩ => rfl
      | ⟨1, _⟩ => show (o.val * 1024 + k.val) / 1024 % 1024 = o.val; omega
      | ⟨2, _⟩ => show (o.val * 1024 + k.val) % 1024 = k.val; omega)
  rw [e1, e2]
  simp only [e3, e4]
  rfl

/-- The third branch's gated term at entry (s, t, o): the gate of row (s, t) against 128, times the affine map of
    weight slice 2 and bias row 2 on that row — the reference's slice, reshape, contraction, bias broadcast, comparison,
    conversion and product each read at the index. -/
theorem branch2 (x0 : S16x4096x1024.Idx → EReal) (x1 : S16x4096.Idx → BitVec 32) (x2 : S4x1024x1024.Idx → EReal) (x3 : S4x1024.Idx → EReal) (s : Fin 16) (t : Fin 4096) (o : Fin 1024) :
    val_main_v44 (F := Ideal) x0 x1 x2 x3 (ix3 s t o)
      = gate (x1 (ix2 s t)) 128#32 * affine (fun i => x0 (ix3 s t i)) x2 x3 2 o := by
  rw [val_main_v44_apply, val_main_v43_apply, val_main_v34_apply, val_main_v33_apply, val_main_v32_apply,
    val_main_v31_apply, val_main_c_1_apply, val_main_v42_apply, val_main_v37_apply, val_main_v41_apply,
    val_main_v40_apply, val_main_v39_apply, val_main_v38_apply]
  simp only [val_main_v36_apply, val_main_v35_apply]
  have e1 : idx_main_v33 (idx_main_v43 (ix3 s t o)) = ix2 s t :=
    funext fun a => by match a with | ⟨0, _⟩ => rfl | ⟨1, _⟩ => rfl
  have e2 : idx_main_v38 (idx_main_v39 (idx_main_v40 (idx_main_v41 (ix3 s t o)))) = ix2 2 o :=
    funext fun a => Fin.ext (by
      match a with
      | ⟨0, _⟩ => rfl
      | ⟨1, _⟩ => show o.val % 1024 = o.val; have := o.isLt; omega)
  have e3 : ∀ k : Fin 1024, lidx_main_v37 (ix3 s t o) k = ix3 s t k :=
    fun k => funext fun a => by match a with | ⟨0, _⟩ => rfl | ⟨1, _⟩ => rfl | ⟨2, _⟩ => rfl
  have e4 : ∀ k : Fin 1024, idx_main_v35 (idx_main_v36 (ridx_main_v37 (ix3 s t o) k)) = ix3 2 o k :=
    fun k => funext fun a => Fin.ext (by
      have ho := o.isLt; have hk := k.isLt
      match a with
      | ⟨0, _⟩ => rfl
      | ⟨1, _⟩ => show (o.val * 1024 + k.val) / 1024 % 1024 = o.val; omega
      | ⟨2, _⟩ => show (o.val * 1024 + k.val) % 1024 = k.val; omega)
  rw [e1, e2]
  simp only [e3, e4]
  rfl

/-- The fourth branch's gated term at entry (s, t, o): the gate of row (s, t) against 256, times the affine map of
    weight slice 3 and bias row 3 on that row — the reference's slice, reshape, contraction, bias broadcast, comparison,
    conversion and product each read at the index. -/
theorem branch3 (x0 : S16x4096x1024.Idx → EReal) (x1 : S16x4096.Idx → BitVec 32) (x2 : S4x1024x1024.Idx → EReal) (x3 : S4x1024.Idx → EReal) (s : Fin 16) (t : Fin 4096) (o : Fin 1024) :
    val_main_v59 (F := Ideal) x0 x1 x2 x3 (ix3 s t o)
      = gate (x1 (ix2 s t)) 256#32 * affine (fun i => x0 (ix3 s t i)) x2 x3 3 o := by
  rw [val_main_v59_apply, val_main_v58_apply, val_main_v49_apply, val_main_v48_apply, val_main_v47_apply,
    val_main_v46_apply, val_main_c_2_apply, val_main_v57_apply, val_main_v52_apply, val_main_v56_apply,
    val_main_v55_apply, val_main_v54_apply, val_main_v53_apply]
  simp only [val_main_v51_apply, val_main_v50_apply]
  have e1 : idx_main_v48 (idx_main_v58 (ix3 s t o)) = ix2 s t :=
    funext fun a => by match a with | ⟨0, _⟩ => rfl | ⟨1, _⟩ => rfl
  have e2 : idx_main_v53 (idx_main_v54 (idx_main_v55 (idx_main_v56 (ix3 s t o)))) = ix2 3 o :=
    funext fun a => Fin.ext (by
      match a with
      | ⟨0, _⟩ => rfl
      | ⟨1, _⟩ => show o.val % 1024 = o.val; have := o.isLt; omega)
  have e3 : ∀ k : Fin 1024, lidx_main_v52 (ix3 s t o) k = ix3 s t k :=
    fun k => funext fun a => by match a with | ⟨0, _⟩ => rfl | ⟨1, _⟩ => rfl | ⟨2, _⟩ => rfl
  have e4 : ∀ k : Fin 1024, idx_main_v50 (idx_main_v51 (ridx_main_v52 (ix3 s t o) k)) = ix3 3 o k :=
    fun k => funext fun a => Fin.ext (by
      have ho := o.isLt; have hk := k.isLt
      match a with
      | ⟨0, _⟩ => rfl
      | ⟨1, _⟩ => show (o.val * 1024 + k.val) / 1024 % 1024 = o.val; omega
      | ⟨2, _⟩ => show (o.val * 1024 + k.val) % 1024 = k.val; omega)
  rw [e1, e2]
  simp only [e3, e4]
  rfl

/-- The reference's last stage is the specification: the zero array plus the four gated branches, left to right. -/
theorem result_eq (x0 : S16x4096x1024.Idx → EReal) (x1 : S16x4096.Idx → BitVec 32) (x2 : S4x1024x1024.Idx → EReal) (x3 : S4x1024.Idx → EReal) :
    val_main_v60 (F := Ideal) x0 x1 x2 x3 = G x0 x1 x2 x3 := by
  funext j
  obtain ⟨s, t, o, rfl⟩ : ∃ (s : Fin 16) (t : Fin 4096) (o : Fin 1024), j = ix3 s t o := ⟨j 0, j 1, j 2, eq_ix3 j⟩
  rw [val_main_v60_apply, val_main_v45_apply, val_main_v30_apply, val_main_v15_apply, val_main_v0_apply, val_main_cst_apply,
    branch0, branch1, branch2, branch3]
  simp only [Ideal.addf_def, Ideal.ofBits_def, Ideal.ofBits_zero_f32, zero_add]
  rfl

end Cert.ReferenceIdeal.RefValue

end
-- ==== Proof.lean ====
/- The proof of `Cert.Claim`: a gated sum of four linear layers, computed tile by tile, against the same sum computed on whole arrays.

   Both programs compute, for every row (s, t) of x : [16, 4096, 1024] and every output column o,
       out[s, t, o] = Σₖ gate(f[s, t] = sizeₖ) · (Σᵢ x[s, t, i] · w[k, o, i] + b[k, o]),   sizes 32, 64, 128, 256,
   the four terms added from left to right (Proof/Spec.lean: `G`). The reference does so on the whole arrays, starting its sum
   from a zero array (0 + a = a on the extended reals); Proof/RefSpec.lean reads its operations one at a time. The kernel
   flattens the rows to [65536, 1024], gives each of 64 grid points a tile of 1024 rows, and in each tile stores the first
   gated term and then three times reads the tile back and adds the next one (Proof/Body.lean: every store overwrites the tile,
   so the tile ends at the left-nested sum; Proof/Contrib.lean and Proof/BlockValue.lean read it at an entry); the tiles fill the
   array (Proof/ArrayValue.lean), and flattening commutes with a row-by-row function (Proof/Flatten.lean, Proof/RunValue.lean).
   The two gates are the same number — one program converts the comparison's bit unsigned, the other widens it with zeros and
   converts it signed — and the narrowing of inputs and weights to a 16-bit format is the identity on extended reals. No step
   divides, cancels or distributes, so nothing needs the inputs to be finite: the precondition is not opened.
   The frames of the two kernel programs are the generated frame certificates; the reference's frame is its generated run with
   the result dropped; the idealization rewrote nothing, so `preserves` is `True`. -/
import proofs.«159065_j85925115724421_2_alg».proof.Defs
import proofs.«159065_j85925115724421_2_alg».proof.Proof.Gen.Kernel
import proofs.«159065_j85925115724421_2_alg».proof.Proof.Gen.Kernel.Skeleton
import proofs.«159065_j85925115724421_2_alg».proof.Proof.Gen.Kernel.Launch
import proofs.«159065_j85925115724421_2_alg».proof.Proof.Gen.Kernel.Points
import proofs.«159065_j85925115724421_2_alg».proof.Proof.Gen.Kernel.Frame
import proofs.«159065_j85925115724421_2_alg».proof.Proof.Gen.KernelIdeal
import proofs.«159065_j85925115724421_2_alg».proof.Proof.Gen.KernelIdeal.Skeleton
import proofs.«159065_j85925115724421_2_alg».proof.Proof.Gen.KernelIdeal.Launch
import proofs.«159065_j85925115724421_2_alg».proof.Proof.Gen.KernelIdeal.Points
import proofs.«159065_j85925115724421_2_alg».proof.Proof.Gen.KernelIdeal.Frame
import proofs.«159065_j85925115724421_2_alg».proof.Proof.Gen.ReferenceIdeal
import proofs.«159065_j85925115724421_2_alg».proof.Proof.Gen.ReferenceIdeal.Run
import proofs.«159065_j85925115724421_2_alg».proof.Proof.Gen.ReferenceIdeal.Read
import proofs.«159065_j85925115724421_2_alg».proof.Proof.Gen.Pre_finite_inputs
import proofs.«159065_j85925115724421_2_alg».proof.Proof.RunValue
import proofs.«159065_j85925115724421_2_alg».proof.Proof.RefSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization of the kernel program rewrote no operation: nothing to preserve. -/
theorem preserves : Cert.preserves_Kernel_KernelIdeal := trivial

/-- Over the extended reals both programs end with their result array at the specification `G` of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v60_eq _ _ _ _).trans ?_
  refine (Cert.ReferenceIdeal.RefValue.result_eq _ _ _ _).trans ?_
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
